-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512 : Shape := ⟨2, ![1, 512]⟩
abbrev S2x1x128 : Shape := ⟨3, ![2, 1, 128]⟩
abbrev S384x512 : Shape := ⟨2, ![384, 512]⟩
abbrev S384x128 : Shape := ⟨2, ![384, 128]⟩
abbrev S384 : Shape := ⟨1, ![384]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bcast_S_S2x1x128 : S_.BroadcastsInDim S2x1x128 (![] : Fin 0 → Fin S2x1x128.rank)
  reducesTo_S2x1x128_S_d0_1_2 : S2x1x128.ReducesTo [0, 1, 2] S_
  bcast_S_S384x512 : S_.BroadcastsInDim S384x512 (![] : Fin 0 → Fin S384x512.rank)
  reducesTo_S384x512_S_d0_1 : S384x512.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_arg5 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S1x512 .f32) (main_arg1 : FVec F S2x1x128 .f32) (main_arg2 : FVec F S384x512 .f32) (main_arg3 : FVec F S384x128 .f32) (main_arg4 : FVec F S384 .f32) (main_arg5 : FVec F S384 .f32) : IVec S_ 1 :=
  let main_v0 : FVec F S1x512 .f32 := Host.absf main_arg0
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S2x1x128 .f32 := Host.absf main_arg1
  let main_cst_0 : FVec F S_ .f32 := constant S_ .f32 0x7F800000#32
  let main_v5 : FVec F S2x1x128 .f32 := broadcastInDim S2x1x128 ![] bcast_S_S2x1x128 main_cst_0
  let main_v6 : IVec S2x1x128 1 := cmpf .olt main_v4 main_v5
  let main_c_1 : IVec S_ 1 := constantI S_ 1 1#1
  let main_v7 : IVec S_ 1 := (fun x v => Host.reduce IntOp.andi x v reducesTo_S2x1x128_S_d0_1_2 h_S_) main_v6 main_c_1
  let main_v8 : IVec S_ 1 := andi main_v3 main_v7
  let main_v9 : FVec F S384x512 .f32 := Host.absf main_arg2
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_v13 main_v16
-- ==== Kernel.lean ====
abbrev S1x512 : Shape := ⟨2, ![1, 512]⟩
abbrev S2x1x128 : Shape := ⟨3, ![2, 1, 128]⟩
abbrev S384x512 : Shape := ⟨2, ![384, 512]⟩
abbrev S384x128 : Shape := ⟨2, ![384, 128]⟩
abbrev S384 : Shape := ⟨1, ![384]⟩
abbrev S1x1x128 : Shape := ⟨3, ![1, 1, 128]⟩
abbrev S1x128 : Shape := ⟨2, ![1, 128]⟩
abbrev S1x384 : Shape := ⟨2, ![1, 384]⟩
abbrev S384x1 : Shape := ⟨2, ![384, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S2x1x128, .f32⟩
  | .hbm, ⟨2, _⟩ => ⟨S384x512, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S1x1x128, .f32⟩
  | .hbm, ⟨7, _⟩ => ⟨S1x128, .f32⟩
  | .hbm, ⟨8, _⟩ => ⟨S1x384, .f32⟩
  | .hbm, ⟨9, _⟩ => ⟨S1x384, .f32⟩
  | .hbm, ⟨10, _⟩ => ⟨S1x128, .f32⟩
  | .local _ .vmem, ⟨0, _⟩ => ⟨S1x512, .f32⟩
  | .local _ .vmem, ⟨1, _⟩ => ⟨S1x128, .f32⟩
  | .local _ .vmem, ⟨2, _⟩ => ⟨S384x512, .f32⟩
  | .local _ .vmem, ⟨3, _⟩ => ⟨S384x128, .f32⟩
  | .local _ .vmem, ⟨4, _⟩ => ⟨S1x384, .f32⟩
  | .local _ .vmem, ⟨5, _⟩ => ⟨S1x384, .f32⟩
  | .local _ .vmem, ⟨6, _⟩ => ⟨S1x128, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  slices_S2x1x128_S1x1x128_0_0_0 : S2x1x128.Slices ![0, 0, 0] S1x1x128
  shapeCasts_S1x1x128_S1x128 : S1x1x128.ShapeCasts S1x128
  shapeCasts_S384_S1x384 : S384.ShapeCasts S1x384
  inb_S1x512_S1x512_0_0 : ∀ a, (![0, 0] : Fin 2 → Nat) a + S1x512.size a ≤ S1x512.size a
  h_S1x512 : 0 < S1x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S384x512_S384x512_0_0 : ∀ a, (![0, 0] : Fin 2 → Nat) a + S384x512.size a ≤ S384x512.size a
  h_S384x512 : 0 < S384x512.numel
  inb_S384x128_S384x128_0_0 : ∀ a, (![0, 0] : Fin 2 → Nat) a + S384x128.size a ≤ S384x128.size a
  h_S384x128 : 0 < S384x128.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  shapeCasts_S384x1_S1x384 : S384x1.ShapeCasts S1x384
  slices_S1x384_o0_0_S1x128 : S1x384.Slices ![0, 0] S1x128
  slices_S1x384_o0_128_S1x128 : S1x384.Slices ![0, 128] S1x128
  slices_S1x384_o0_256_S1x128 : S1x384.Slices ![0, 256] S1x128
  dot_S384x512_S1x512_S384x1_1_1_0_0_n_n_wf : DotDims.WF S384x512 S1x512 S384x1 [1] [1] [0] [0] [] []
  dot_S384x128_S1x128_S384x1_1_1_0_0_n_n_wf : DotDims.WF S384x128 S1x128 S384x1 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S384x512_S1x512_S384x1_1_1_0_0_n_n : DotDims S384x512 S1x512 S384x1 where
  lhsContracting := [1]
  rhsContracting := [1]
  lhsNonContracting := [0]
  rhsNonContracting := [0]
  lhsBatch := []
  rhsBatch := []
  wf := dot_S384x512_S1x512_S384x1_1_1_0_0_n_n_wf
def dot_S384x128_S1x128_S384x1_1_1_0_0_n_n : DotDims S384x128 S1x128 S384x1 where
  lhsContracting := [1]
  rhsContracting := [1]
  lhsNonContracting := [0]
  rhsNonContracting := [0]
  lhsBatch := []
  rhsBatch := []
  wf := dot_S384x128_S1x128_S384x1_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v2) false false (stage0_4 0) (sem0_4 0) (Memref.isWhole_whole _) (hstage0_4 0)

abbrev win0_5 : Pipeline.Window sig grid0 :=
  Pipeline.Window.whole (Memref.whole main_v3) false false (stage0_5 0) (sem0_5 0) (Memref.isWhole_whole _) (hstage0_5 0)

abbrev win0_6 : Pipeline.Window sig grid0 :=
  Pipeline.Window.whole (Memref.whole main_v4) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x512 : Shape := ⟨2, ![1, 512]⟩
abbrev S2x1x128 : Shape := ⟨3, ![2, 1, 128]⟩
abbrev S384x512 : Shape := ⟨2, ![384, 512]⟩
abbrev S384x128 : Shape := ⟨2, ![384, 128]⟩
abbrev S384 : Shape := ⟨1, ![384]⟩
abbrev S1x1x128 : Shape := ⟨3, ![1, 1, 128]⟩
abbrev S1x128 : Shape := ⟨2, ![1, 128]⟩
abbrev S512x384 : Shape := ⟨2, ![512, 384]⟩
abbrev S1x384 : Shape := ⟨2, ![1, 384]⟩
abbrev S128x384 : Shape := ⟨2, ![128, 384]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S2x1x128, .f32⟩
  | .hbm, ⟨2, _⟩ => ⟨S384x512, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S1x1x128, .f32⟩
  | .hbm, ⟨7, _⟩ => ⟨S1x128, .f32⟩
  | .hbm, ⟨8, _⟩ => ⟨S512x384, .f32⟩
  | .hbm, ⟨9, _⟩ => ⟨S1x384, .f32⟩
  | .hbm, ⟨10, _⟩ => ⟨S1x384, .f32⟩
  | .hbm, ⟨11, _⟩ => ⟨S1x384, .f32⟩
  | .hbm, ⟨12, _⟩ => ⟨S128x384, .f32⟩
  | .hbm, ⟨13, _⟩ => ⟨S1x384, .f32⟩
  | .hbm, ⟨14, _⟩ => ⟨S1x384, .f32⟩
  | .hbm, ⟨15, _⟩ => ⟨S1x384, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  slices_S2x1x128_S1x1x128_0_0_0 : S2x1x128.Slices ![0, 0, 0] S1x1x128
  shapeCasts_S1x1x128_S1x128 : S1x1x128.ShapeCasts S1x128
  transposes_S384x512_S512x384_1_0 : S384x512.Transposes [1, 0] S512x384
  bcast_S384_S1x384_1 : S384.BroadcastsInDim S1x384 (![1] : Fin 1 → Fin S1x384.rank)
  transposes_S384x128_S128x384_1_0 : S384x128.Transposes [1, 0] S128x384
  slices_S1x384_S1x128_0_0 : S1x384.Slices ![0, 0] S1x128
  slices_S1x384_S1x128_0_128 : S1x384.Slices ![0, 128] S1x128
  slices_S1x384_S1x128_0_256 : S1x384.Slices ![0, 256] S1x128
  bcast_S_S1x128 : S_.BroadcastsInDim S1x128 (![] : Fin 0 → Fin S1x128.rank)
  dot_S1x512_S512x384_S1x384_1_0_0_1_n_n_wf : DotDims.WF S1x512 S512x384 S1x384 [1] [0] [0] [1] [] []
  dot_S1x128_S128x384_S1x384_1_0_0_1_n_n_wf : DotDims.WF S1x128 S128x384 S1x384 [1] [0] [0] [1] [] []

variable [Facts₀]

def dot_S1x512_S512x384_S1x384_1_0_0_1_n_n : DotDims S1x512 S512x384 S1x384 where
  lhsContracting := [1]
  rhsContracting := [0]
  lhsNonContracting := [0]
  rhsNonContracting := [1]
  lhsBatch := []
  rhsBatch := []
  wf := dot_S1x512_S512x384_S1x384_1_0_0_1_n_n_wf
def dot_S1x128_S128x384_S1x384_1_0_0_1_n_n : DotDims S1x128 S128x384 S1x384 where
  lhsContracting := [1]
  rhsContracting := [0]
  lhsNonContracting := [0]
  rhsNonContracting := [1]
  lhsBatch := []
  rhsBatch := []
  wf := dot_S1x128_S128x384_S1x384_1_0_0_1_n_n_wf

class Facts : Prop extends Facts₀ where

variable [Facts]
-- ==== Proof.GruSpec.lean ====
/-
  One step of a GRU cell, as ONE function of the six argument arrays, on the extended reals.

  With `x` the input row (512 entries), `h` the previous state (the first of the two rows of `h0`, 128 entries),
  `Wih` (384 × 512), `Whh` (384 × 128) the stacked gate weights and `bih`, `bhh` (384 entries each) the stacked
  biases, the two pre-activation vectors are the affine images

      gx j = Σ_k Wih[j, k] · x[k] + bih[j]        gh j = Σ_k Whh[j, k] · h[k] + bhh[j]        (j < 384)

  whose three blocks of 128 rows belong to the reset gate (rows q), the update gate (rows 128 + q) and the candidate
  (rows 256 + q). Lane `q` of the new state is

      r = σ(gx q + gh q)      z = σ(gx (128+q) + gh (128+q))      n = tanh(gx (256+q) + r · gh (256+q))
      h' q = (1 − z) · n + z · h q

  with σ the logistic function `1 / (1 + e^(−t))` read on the extended reals (σ(−∞) = 0, σ(+∞) = 1). Nothing here needs
  the entries to be finite: the statement is about one arrangement of sums, products, σ and tanh, and the two programs
  compared against it differ only in the order of the two factors of each product and in how σ is spelt.
-/
import Idealize.ShloMosaic.PureOps.Ideal
import Idealize.ShloMosaic.PureOps.Ideal.Laws
import Idealize.ShloMosaic.Lib.ValueIdx

noncomputable section

namespace Cert.Gru

open Idealize.ShloMosaic Idealize.ShloMosaic.ValueIdx

/-- The f32 word `0x3F800000` denotes the number one. -/
theorem one_f32 : Ideal.ofBits .f32 0x3F800000#32 = 1 := by
  simp [Ideal.ofBits, Ideal.ieee, -EReal.coe_mul]; norm_num

/-- Row `q` of the reset gate's block of the 384 stacked rows. -/
def rowR (q : Fin 128) : Fin 384 := ⟨q.val, by have := q.isLt; omega⟩
/-- Row `q` of the update gate's block: `128 + q`. -/
def rowZ (q : Fin 128) : Fin 384 := ⟨128 + q.val, by have := q.isLt; omega⟩
/-- Row `q` of the candidate's block: `256 + q`. -/
def rowN (q : Fin 128) : Fin 384 := ⟨256 + q.val, by have := q.isLt; omega⟩

/-- Entry `j` of `W·v + b`: row `j` of the weights against the vector, plus the bias. -/
def affine {K : Nat} (W : (⟨2, ![384, K]⟩ : Shape).Idx → EReal) (v : Fin K → EReal) (b : Fin 384 → EReal)
    (j : Fin 384) : EReal :=
  (∑ k : Fin K, W (ix2 j k) * v k) + b j

/-- Lane `q` of the new state from the two pre-activation vectors and the previous state. -/
def lane (gx gh : Fin 384 → EReal) (h : Fin 128 → EReal) (q : Fin 128) : EReal :=
  (1 - Ideal.logistic (gx (rowZ q) + gh (rowZ q)))
      * Ideal.tanh (gx (rowN q) + Ideal.logistic (gx (rowR q) + gh (rowR q)) * gh (rowN q))
    + Ideal.logistic (gx (rowZ q) + gh (rowZ q)) * h q

/-- The new state, a 1 × 128 array, as one function of the six argument arrays. -/
def step (x : (⟨2, ![1, 512]⟩ : Shape).Idx → EReal) (h0 : (⟨3, ![2, 1, 128]⟩ : Shape).Idx → EReal)
    (Wih : (⟨2, ![384, 512]⟩ : Shape).Idx → EReal) (Whh : (⟨2, ![384, 128]⟩ : Shape).Idx → EReal)
    (bih bhh : (⟨1, ![384]⟩ : Shape).Idx → EReal) : (⟨2, ![1, 128]⟩ : Shape).Idx → EReal := fun i =>
  lane (affine Wih (fun k => x (ix2 0 k)) (fun j => bih (ix1 j)))
    (affine Whh (fun k => h0 (ix3 0 0 k)) (fun j => bhh (ix1 j)))
    (fun q => h0 (ix3 0 0 q)) (i 1)

/-- The logistic function is its own expansion `1 / (1 + e^(−t))` in the host's operations. -/
theorem logistic_expand (t : EReal) : Ideal.div 1 (1 + Ideal.exp (-t)) = Ideal.logistic t := rfl

end Cert.Gru

end
-- ==== Proof.KernelGates.lean ====
/-
  The kernel's two matrix products, read at an index.

  The kernel multiplies each stacked weight matrix (384 × K) by the activation ROW (1 × K), contracting the second
  axis of both, into a 384 × 1 column that starts at zero: entry (j, 0) of the column is Σ_k W[j, k] · v[0, k].
  Then the column is re-laid as the row 1 × 384 and the bias row is added: entry (0, j) of the result is
  Σ_k W[j, k] · v[0, k] + b[0, j], the affine row `j` of the specification.
-/
import proofs.«167990_j60687887892609_2_alg».proof.Proof.Gen.KernelIdeal.Skeleton
import proofs.«167990_j60687887892609_2_alg».proof.Proof.GruSpec
import Idealize.ShloMosaic.Lib.Pipeline.Value
import Idealize.ShloMosaic.Lib.ValueIdx
import Idealize.ShloMosaic.PureOps.Ideal.Laws

noncomputable section

namespace Cert.KernelIdeal.GruValue

open Cert.KernelIdeal Cert.KernelIdeal.Gen Idealize.ShloMosaic Idealize.ShloMosaic.ValueIdx Cert.Gru

/-! ## The input-side product: 384 × 512 against 1 × 512 -/

theorem lhsX_0 (i : S384x1.Idx) (q : dot_S384x512_S1x512_S384x1_1_1_0_0_n_n.contr.Idx) :
    (dot_S384x512_S1x512_S384x1_1_1_0_0_n_n.lhsIdx i q 0).val = (i 0).val := by
  unfold DotDims.lhsIdx
  rw [dif_neg (show ¬(0 : Fin S384x512.rank) ∈ dot_S384x512_S1x512_S384x1_1_1_0_0_n_n.lhsBatch by decide),
    dif_pos (show (0 : Fin S384x512.rank) ∈ dot_S384x512_S1x512_S384x1_1_1_0_0_n_n.lhsNonContracting by decide)]
  rfl
theorem lhsX_1 (i : S384x1.Idx) (q : dot_S384x512_S1x512_S384x1_1_1_0_0_n_n.contr.Idx) :
    (dot_S384x512_S1x512_S384x1_1_1_0_0_n_n.lhsIdx i q 1).val = (q ⟨0, by decide⟩).val :=
  dot_S384x512_S1x512_S384x1_1_1_0_0_n_n.lhsIdx_val_of_single rfl i q
theorem rhsX_0 (i : S384x1.Idx) (q : dot_S384x512_S1x512_S384x1_1_1_0_0_n_n.contr.Idx) :
    (dot_S384x512_S1x512_S384x1_1_1_0_0_n_n.rhsIdx i q 0).val = (i 1).val := by
  unfold DotDims.rhsIdx
  rw [dif_neg (show ¬(0 : Fin S1x512.rank) ∈ dot_S384x512_S1x512_S384x1_1_1_0_0_n_n.rhsBatch by decide),
    dif_pos (show (0 : Fin S1x512.rank) ∈ dot_S384x512_S1x512_S384x1_1_1_0_0_n_n.rhsNonContracting by decide)]
  rfl
theorem rhsX_1 (i : S384x1.Idx) (q : dot_S384x512_S1x512_S384x1_1_1_0_0_n_n.contr.Idx) :
    (dot_S384x512_S1x512_S384x1_1_1_0_0_n_n.rhsIdx i q 1).val = (q ⟨0, by decide⟩).val :=
  dot_S384x512_S1x512_S384x1_1_1_0_0_n_n.rhsIdx_val_of_single rfl i q

/-- Entry (j, 0) of the input-side column is row `j` of the weights against the input row. -/
theorem gemvX (W : FVec Ideal S384x512 .f32) (v : FVec Ideal S1x512 .f32) (j : Fin 384) (z : Fin 1) :
    matmul dot_S384x512_S1x512_S384x1_1_1_0_0_n_n none W v (constant (F := Ideal) S384x1 .f32 0x00000000#32) (ix2 j z)
      = ∑ k : Fin 512, W (ix2 j k) * v (ix2 0 k) := by
  simp only [matmul]
  rw [Ideal.matmul_constant_zero_apply,
    ← Equiv.sum_comp (contrEquiv1 dot_S384x512_S1x512_S384x1_1_1_0_0_n_n 512 rfl rfl).symm]
  refine Finset.sum_congr rfl fun k _ => ?_
  have hk := contrEquiv1_symm_val dot_S384x512_S1x512_S384x1_1_1_0_0_n_n 512 rfl rfl k
  have el : dot_S384x512_S1x512_S384x1_1_1_0_0_n_n.lhsIdx (ix2 j z)
      ((contrEquiv1 dot_S384x512_S1x512_S384x1_1_1_0_0_n_n 512 rfl rfl).symm k) = ix2 j k :=
    funext fun a => Fin.ext (by
      match a with
      | ⟨0, _⟩ => exact lhsX_0 _ _
      | ⟨1, _⟩ => exact (lhsX_1 _ _).trans hk)
  have er : dot_S384x512_S1x512_S384x1_1_1_0_0_n_n.rhsIdx (ix2 j z)
      ((contrEquiv1 dot_S384x512_S1x512_S384x1_1_1_0_0_n_n 512 rfl rfl).symm k) = ix2 0 k :=
    funext fun a => Fin.ext (by
      match a with
      | ⟨0, _⟩ => exact (rhsX_0 _ _).trans (by show z.val = 0; omega)
      | ⟨1, _⟩ => exact (rhsX_1 _ _).trans hk)
  rw [el, er]

/-! ## The state-side product: 384 × 128 against 1 × 128 -/

theorem lhsH_0 (i : S384x1.Idx) (q : dot_S384x128_S1x128_S384x1_1_1_0_0_n_n.contr.Idx) :
    (dot_S384x128_S1x128_S384x1_1_1_0_0_n_n.lhsIdx i q 0).val = (i 0).val := by
  unfold DotDims.lhsIdx
  rw [dif_neg (show ¬(0 : Fin S384x128.rank) ∈ dot_S384x128_S1x128_S384x1_1_1_0_0_n_n.lhsBatch by decide),
    dif_pos (show (0 : Fin S384x128.rank) ∈ dot_S384x128_S1x128_S384x1_1_1_0_0_n_n.lhsNonContracting by decide)]
  rfl
theorem lhsH_1 (i : S384x1.Idx) (q : dot_S384x128_S1x128_S384x1_1_1_0_0_n_n.contr.Idx) :
    (dot_S384x128_S1x128_S384x1_1_1_0_0_n_n.lhsIdx i q 1).val = (q ⟨0, by decide⟩).val :=
  dot_S384x128_S1x128_S384x1_1_1_0_0_n_n.lhsIdx_val_of_single rfl i q
theorem rhsH_0 (i : S384x1.Idx) (q : dot_S384x128_S1x128_S384x1_1_1_0_0_n_n.contr.Idx) :
    (dot_S384x128_S1x128_S384x1_1_1_0_0_n_n.rhsIdx i q 0).val = (i 1).val := by
  unfold DotDims.rhsIdx
  rw [dif_neg (show ¬(0 : Fin S1x128.rank) ∈ dot_S384x128_S1x128_S384x1_1_1_0_0_n_n.rhsBatch by decide),
    dif_pos (show (0 : Fin S1x128.rank) ∈ dot_S384x128_S1x128_S384x1_1_1_0_0_n_n.rhsNonContracting by decide)]
  rfl
theorem rhsH_1 (i : S384x1.Idx) (q : dot_S384x128_S1x128_S384x1_1_1_0_0_n_n.contr.Idx) :
    (dot_S384x128_S1x128_S384x1_1_1_0_0_n_n.rhsIdx i q 1).val = (q ⟨0, by decide⟩).val :=
  dot_S384x128_S1x128_S384x1_1_1_0_0_n_n.rhsIdx_val_of_single rfl i q

/-- Entry (j, 0) of the state-side column is row `j` of the weights against the state row. -/
theorem gemvH (W : FVec Ideal S384x128 .f32) (v : FVec Ideal S1x128 .f32) (j : Fin 384) (z : Fin 1) :
    matmul dot_S384x128_S1x128_S384x1_1_1_0_0_n_n none W v (constant (F := Ideal) S384x1 .f32 0x00000000#32) (ix2 j z)
      = ∑ k : Fin 128, W (ix2 j k) * v (ix2 0 k) := by
  simp only [matmul]
  rw [Ideal.matmul_constant_zero_apply,
    ← Equiv.sum_comp (contrEquiv1 dot_S384x128_S1x128_S384x1_1_1_0_0_n_n 128 rfl rfl).symm]
  refine Finset.sum_congr rfl fun k _ => ?_
  have hk := contrEquiv1_symm_val dot_S384x128_S1x128_S384x1_1_1_0_0_n_n 128 rfl rfl k
  have el : dot_S384x128_S1x128_S384x1_1_1_0_0_n_n.lhsIdx (ix2 j z)
      ((contrEquiv1 dot_S384x128_S1x128_S384x1_1_1_0_0_n_n 128 rfl rfl).symm k) = ix2 j k :=
    funext fun a => Fin.ext (by
      match a with
      | ⟨0, _⟩ => exact lhsH_0 _ _
      | ⟨1, _⟩ => exact (lhsH_1 _ _).trans hk)
  have er : dot_S384x128_S1x128_S384x1_1_1_0_0_n_n.rhsIdx (ix2 j z)
      ((contrEquiv1 dot_S384x128_S1x128_S384x1_1_1_0_0_n_n 128 rfl rfl).symm k) = ix2 0 k :=
    funext fun a => Fin.ext (by
      match a with
      | ⟨0, _⟩ => exact (rhsH_0 _ _).trans (by show z.val = 0; omega)
      | ⟨1, _⟩ => exact (rhsH_1 _ _).trans hk)
  rw [el, er]

/-! ## The column as a row, and the bias -/

/-- A 384 × 1 column re-laid as the row 1 × 384 keeps its entries in order: entry (0, j) is the column's (j, 0). -/
theorem row_of_col (col : FVec Ideal S384x1 .f32) (p : Fin 1) (j : Fin 384) :
    shapeCast S1x384 col shapeCasts_S384x1_S1x384 (ix2 p j) = col (ix2 j 0) :=
  shapeCast_apply col shapeCasts_S384x1_S1x384 (ix2 p j) (ix2 j 0) (by
    rw [Shape.rowMajor_val_two, Shape.rowMajor_val_two]
    show j.val * 1 + 0 = p.val * 384 + j.val
    have := p.isLt; omega)

/-- The input-side pre-activation row: entry (0, j) is affine row `j`. -/
theorem gatesX (W : FVec Ideal S384x512 .f32) (v : FVec Ideal S1x512 .f32) (b : FVec Ideal S1x384 .f32) (p : Fin 1) (j : Fin 384) :
    addf (shapeCast S1x384 (matmul dot_S384x512_S1x512_S384x1_1_1_0_0_n_n none W v (constant (F := Ideal) S384x1 .f32 0x00000000#32))
      shapeCasts_S384x1_S1x384) b (ix2 p j)
      = affine W (fun k => v (ix2 0 k)) (fun j => b (ix2 0 j)) j := by
  obtain rfl : p = 0 := Subsingleton.elim _ _
  show shapeCast S1x384 _ shapeCasts_S384x1_S1x384 (ix2 0 j) + b (ix2 0 j) = _
  rw [row_of_col, gemvX]
  rfl

/-- The state-side pre-activation row: entry (0, j) is affine row `j`. -/
theorem gatesH (W : FVec Ideal S384x128 .f32) (v : FVec Ideal S1x128 .f32) (b : FVec Ideal S1x384 .f32) (p : Fin 1) (j : Fin 384) :
    addf (shapeCast S1x384 (matmul dot_S384x128_S1x128_S384x1_1_1_0_0_n_n none W v (constant (F := Ideal) S384x1 .f32 0x00000000#32))
      shapeCasts_S384x1_S1x384) b (ix2 p j)
      = affine W (fun k => v (ix2 0 k)) (fun j => b (ix2 0 j)) j := by
  obtain rfl : p = 0 := Subsingleton.elim _ _
  show shapeCast S1x384 _ shapeCasts_S384x1_S1x384 (ix2 0 j) + b (ix2 0 j) = _
  rw [row_of_col, gemvH]
  rfl

end Cert.KernelIdeal.GruValue

end
-- ==== Proof.KernelLane.lean ====
/-
  The kernel body's arithmetic at one output entry.

  The body forms the two pre-activation rows (1 × 384), cuts each into its three blocks of 128 lanes (reset: lanes
  q, update: lanes 128 + q, candidate: lanes 256 + q), and combines them lane by lane. Entry (0, q) of what it stores
  is therefore the specification's `lane` at `q`, over the two affine rows of the loaded blocks and the loaded state.
-/
import proofs.«167990_j60687887892609_2_alg».proof.Proof.KernelGates

noncomputable section

namespace Cert.KernelIdeal.GruValue

open Cert.KernelIdeal Cert.KernelIdeal.Gen Idealize.ShloMosaic Idealize.ShloMosaic.ValueIdx Cert.Gru

/-! ## The three blocks of a pre-activation row -/

/-- The reset block: lane `q` of the slice at offset 0 is entry `q` of the row. -/
theorem sliceR (y : FVec Ideal S1x384 .f32) (p : Fin 1) (q : Fin 128) :
    extractStridedSlice S1x128 ![0, 0] y slices_S1x384_o0_0_S1x128 (ix2 p q) = y (ix2 p (rowR q)) :=
  extractStridedSlice_apply ![0, 0] y slices_S1x384_o0_0_S1x128 (ix2 p q) (ix2 p (rowR q)) (fun a => match a with
    | ⟨0, _⟩ => by show p.val = 0 + p.val; omega
    | ⟨1, _⟩ => by show q.val = 0 + q.val; omega)

/-- The update block: lane `q` of the slice at offset 128 is entry `128 + q` of the row. -/
theorem sliceZ (y : FVec Ideal S1x384 .f32) (p : Fin 1) (q : Fin 128) :
    extractStridedSlice S1x128 ![0, 128] y slices_S1x384_o0_128_S1x128 (ix2 p q) = y (ix2 p (rowZ q)) :=
  extractStridedSlice_apply ![0, 128] y slices_S1x384_o0_128_S1x128 (ix2 p q) (ix2 p (rowZ q)) (fun a => match a with
    | ⟨0, _⟩ => by show p.val = 0 + p.val; omega
    | ⟨1, _⟩ => by show 128 + q.val = 128 + q.val; rfl)

/-- The candidate block: lane `q` of the slice at offset 256 is entry `256 + q` of the row. -/
theorem sliceN (y : FVec Ideal S1x384 .f32) (p : Fin 1) (q : Fin 128) :
    extractStridedSlice S1x128 ![0, 256] y slices_S1x384_o0_256_S1x128 (ix2 p q) = y (ix2 p (rowN q)) :=
  extractStridedSlice_apply ![0, 256] y slices_S1x384_o0_256_S1x128 (ix2 p q) (ix2 p (rowN q)) (fun a => match a with
    | ⟨0, _⟩ => by show p.val = 0 + p.val; omega
    | ⟨1, _⟩ => by show 256 + q.val = 256 + q.val; rfl)

/-! ## The stored value at an entry -/

/-- Entry (0, q) of the body's stored value: the GRU lane `q` over the affine rows of the loaded weights, input,
    state and biases. -/
theorem pay_apply (x0 : Vec Ideal S1x512 .f32) (x1 : Vec Ideal S1x128 .f32) (x3 : Vec Ideal S384x512 .f32)
    (x4 : Vec Ideal S384x128 .f32) (x5 x7 : Vec Ideal S1x384 .f32) (p : Fin 1) (q : Fin 128) :
    k0_pay1 (F := Ideal) x0 x1 x3 x4 x5 x7 (ix2 p q)
      = lane (affine x3 (fun k => x0 (ix2 0 k)) (fun j => x5 (ix2 0 j)))
          (affine x4 (fun k => x1 (ix2 0 k)) (fun j => x7 (ix2 0 j)))
          (fun q => x1 (ix2 0 q)) q := by
  unfold k0_pay1
  simp only [shapeCast_self]
  generalize hgx : addf (shapeCast S1x384 (matmul dot_S384x512_S1x512_S384x1_1_1_0_0_n_n none x3 x0
    (constant (F := Ideal) S384x1 .f32 0x00000000#32)) shapeCasts_S384x1_S1x384) x5 = gx
  generalize hgh : addf (shapeCast S1x384 (matmul dot_S384x128_S1x128_S384x1_1_1_0_0_n_n none x4 x1
    (constant (F := Ideal) S384x1 .f32 0x00000000#32)) shapeCasts_S384x1_S1x384) x7 = gh
  have egx : ∀ j : Fin 384, gx (ix2 p j) = affine x3 (fun k => x0 (ix2 0 k)) (fun j => x5 (ix2 0 j)) j :=
    fun j => by rw [← hgx]; exact gatesX x3 x0 x5 p j
  have egh : ∀ j : Fin 384, gh (ix2 p j) = affine x4 (fun k => x1 (ix2 0 k)) (fun j => x7 (ix2 0 j)) j :=
    fun j => by rw [← hgh]; exact gatesH x4 x1 x7 p j
  show (Ideal.ofBits .f32 0x3F800000#32
          - Ideal.logistic (extractStridedSlice S1x128 ![0, 128] gx slices_S1x384_o0_128_S1x128 (ix2 p q)
              + extractStridedSlice S1x128 ![0, 128] gh slices_S1x384_o0_128_S1x128 (ix2 p q)))
        * Ideal.tanh (extractStridedSlice S1x128 ![0, 256] gx slices_S1x384_o0_256_S1x128 (ix2 p q)
            + Ideal.logistic (extractStridedSlice S1x128 ![0, 0] gx slices_S1x384_o0_0_S1x128 (ix2 p q)
                + extractStridedSlice S1x128 ![0, 0] gh slices_S1x384_o0_0_S1x128 (ix2 p q))
              * extractStridedSlice S1x128 ![0, 256] gh slices_S1x384_o0_256_S1x128 (ix2 p q))
      + Ideal.logistic (extractStridedSlice S1x128 ![0, 128] gx slices_S1x384_o0_128_S1x128 (ix2 p q)
            + extractStridedSlice S1x128 ![0, 128] gh slices_S1x384_o0_128_S1x128 (ix2 p q))
          * x1 (ix2 p q) = _
  simp only [sliceR, sliceZ, sliceN, egx, egh, one_f32]
  obtain rfl : p = 0 := Subsingleton.elim _ _
  rfl

end Cert.KernelIdeal.GruValue

end
-- ==== Proof.KernelValue.lean ====
/-
  From the one block to the array.

  The call has no grid: one point, and every window is its whole array, so each input block at that point IS the
  array as the region finds it, and the output's one block is the whole output array. The output array after the
  run is therefore the body's stored value of the six arrays the region finds. Three of those were written by the
  host just before the call: the previous state (row 0 of `h0`, re-laid 1 × 128) and the two biases (each re-laid
  1 × 384); the other three are arguments as launched.
-/
import proofs.«167990_j60687887892609_2_alg».proof.Proof.Gen.KernelIdeal.Value
import proofs.«167990_j60687887892609_2_alg».proof.Proof.KernelLane
import Idealize.ShloMosaic.Lib.StableHlo.Run

noncomputable section

namespace Cert.KernelIdeal.GruValue

open Cert.KernelIdeal Cert.KernelIdeal.Gen Idealize.ShloMosaic Idealize.ShloMosaic.TcCoe Idealize.SL.Sem
open Idealize.ShloMosaic.ValueIdx Cert.Gru
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- Every window's block index is zero on both axes at the one point. -/
theorem block_index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Each input block is the whole array -/

theorem block0 (c : Dev nD) (t : Fin cfg0.N) : (iblk m c 0 t : Vec F S1x512 .f32) = V m c main_arg0 := by
  obtain ⟨e0, e1, -⟩ := block_index_zero t
  funext y
  show V m c main_arg0 (((cfg0.win 0).blk t).view.emb y) = V m c main_arg0 y
  refine congrArg _ (funext fun a => Fin.ext ?_)
  match a with
  | ⟨0, _⟩ => show win0_0.index t (0 : Fin 2) * 1 + 1 * (y 0).val = (y 0).val; omega
  | ⟨1, _⟩ => show win0_0.index t (1 : Fin 2) * 512 + 1 * (y 1).val = (y 1).val; omega

theorem block1 (c : Dev nD) (t : Fin cfg0.N) : (iblk m c 1 t : Vec F S1x128 .f32) = V m c main_v1 := by
  obtain ⟨-, -, e0, e1, -⟩ := block_index_zero t
  funext y
  show V m c main_v1 (((cfg0.win 1).blk t).view.emb y) = V m c main_v1 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem block2 (c : Dev nD) (t : Fin cfg0.N) : (iblk m c 2 t : Vec F S384x512 .f32) = V m c main_arg2 := by
  obtain ⟨-, -, -, -, e0, e1, -⟩ := block_index_zero t
  funext y
  show V m c main_arg2 (((cfg0.win 2).blk t).view.emb y) = V m c main_arg2 y
  refine congrArg _ (funext fun a => Fin.ext ?_)
  match a with
  | ⟨0, _⟩ => show win0_2.index t (0 : Fin 2) * 384 + 1 * (y 0).val = (y 0).val; omega
  | ⟨1, _⟩ => show win0_2.index t (1 : Fin 2) * 512 + 1 * (y 1).val = (y 1).val; omega

theorem block3 (c : Dev nD) (t : Fin cfg0.N) : (iblk m c 3 t : Vec F S384x128 .f32) = V m c main_arg3 := by
  obtain ⟨-, -, -, -, -, -, e0, e1, -⟩ := block_index_zero t
  funext y
  show V m c main_arg3 (((cfg0.win 3).blk t).view.emb y) = V m c main_arg3 y
  refine congrArg _ (funext fun a => Fin.ext ?_)
  match a with
  | ⟨0, _⟩ => show win0_3.index t (0 : Fin 2) * 384 + 1 * (y 0).val = (y 0).val; omega
  | ⟨1, _⟩ => show win0_3.index t (1 : Fin 2) * 128 + 1 * (y 1).val = (y 1).val; omega

theorem block4 (c : Dev nD) (t : Fin cfg0.N) : (iblk m c 4 t : Vec F S1x384 .f32) = V m c main_v2 := by
  obtain ⟨-, -, -, -, -, -, -, -, e0, e1, -⟩ := block_index_zero t
  funext y
  show V m c main_v2 (((cfg0.win 4).blk t).view.emb y) = V m c main_v2 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 384 + 1 * (y 1).val = (y 1).val; omega

theorem block5 (c : Dev nD) (t : Fin cfg0.N) : (iblk m c 5 t : Vec F S1x384 .f32) = V m c main_v3 := by
  obtain ⟨-, -, -, -, -, -, -, -, -, -, e0, e1, -⟩ := block_index_zero t
  funext y
  show V m c main_v3 (((cfg0.win 5).blk t).view.emb y) = V m c main_v3 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 384 + 1 * (y 1).val = (y 1).val; omega

/-! ## What the one point writes back, and the array after the run -/

/-- The stored value of the six arrays as the region finds them. -/
abbrev stored (c : Dev nD) : S1x128.Idx → Elt F .f32 :=
  k0_pay1 (V m c main_arg0) (V m c main_v1) (V m c main_arg2) (V m c main_arg3) (V m c main_v2) (V m c main_v3)

/-- The point writes back the whole of `stored`. -/
theorem flushed_eq (c : Dev nD) (t : Fin cfg0.N) :
    (dats m 0 c).flushed 6 t = ((cfg0.win 6).blk t).view.read (Elt F) (stored m c) := by
  rw [Value.flushed6]
  unfold out0_6
  rw [View.canon_unit_zero zero_offsets]
  simp only [View.ld_unit_zero (S := S1x512) zero_offsets, View.ld_unit_zero (S := S1x128) zero_offsets,
    View.ld_unit_zero (S := S384x512) zero_offsets, View.ld_unit_zero (S := S384x128) zero_offsets,
    View.ld_unit_zero (S := S1x384) zero_offsets]
  rw [block0, block1, block2, block3, block4, block5]
  obtain ⟨-, -, -, -, -, -, -, -, -, -, -, -, e0, e1⟩ := block_index_zero t
  funext y
  show stored m c y = stored m c (((cfg0.win 6).blk t).view.emb y)
  refine congrArg _ (funext fun a => Fin.ext ?_)
  match a with
  | ⟨0, _⟩ => show (y 0).val = win0_6.index t (0 : Fin 2) * 1 + 1 * (y 0).val; omega
  | ⟨1, _⟩ => show (y 1).val = win0_6.index t (1 : Fin 2) * 128 + 1 * (y 1).val; omega

/-- The one block covers the whole output array. -/
theorem cover (i : S1x128.Idx) : ∃ t : Fin cfg0.N, (cfg0.win 6).flush t = true ∧ i ∈ ((cfg0.win 6).blk t).view.set := by
  refine ⟨t0_0, flush0_6 t0_0, ?_⟩
  obtain ⟨-, -, -, -, -, -, -, -, -, -, -, -, e0, e1⟩ := block_index_zero t0_0
  show i ∈ ((View.whole main_v4).slice (win0_6.rect t0_0)).set
  rw [View.set_slice_whole, Rect.mem_set_unit]
  intro a
  have h0 : (i 0).val < 1 := (i 0).isLt
  have h1 : (i 1).val < 128 := (i 1).isLt
  match a with
  | ⟨0, _⟩ => show win0_6.index t0_0 (0 : Fin 2) * 1 ≤ (i 0).val ∧ (i 0).val < win0_6.index t0_0 (0 : Fin 2) * 1 + 1; omega
  | ⟨1, _⟩ => show win0_6.index t0_0 (1 : Fin 2) * 128 ≤ (i 1).val ∧ (i 1).val < win0_6.index t0_0 (1 : Fin 2) * 128 + 128; omega

/-- The output array after the run is the stored value. -/
theorem final (c : Dev nD) : (dats m 0 c).arrAt 6 cfg0.N = stored m c :=
  (dats m 0 c).arrAt_eq_of_cover 6 (stored m c) (fun t _ => flushed_eq m c t) cover

/-! ## The arrays the host wrote before the call -/

/-- The previous state as the region finds it: row 0 of `h0`, re-laid 1 × 128. -/
theorem V_state (c : Dev nD) : (V m c main_v1 : S1x128.Idx → Elt F .f32)
    = shapeCast S1x128 (extractStridedSlice S1x1x128 ![0, 0, 0] (m ((c : Thread nD τ).loc main_arg1))
        slices_S2x1x128_S1x1x128_0_0_0) shapeCasts_S1x1x128_S1x128 := by
  dsimp only [Gen.V, Gen.hostOps0]; after_results; rfl

/-- The input-side bias as the region finds it: re-laid 1 × 384. -/
theorem V_biasX (c : Dev nD) : (V m c main_v2 : S1x384.Idx → Elt F .f32)
    = shapeCast S1x384 (m ((c : Thread nD τ).loc main_arg4)) shapeCasts_S384_S1x384 := by
  dsimp only [Gen.V, Gen.hostOps0]; after_results; rfl

/-- The state-side bias as the region finds it: re-laid 1 × 384. -/
theorem V_biasH (c : Dev nD) : (V m c main_v3 : S1x384.Idx → Elt F .f32)
    = shapeCast S1x384 (m ((c : Thread nD τ).loc main_arg5)) shapeCasts_S384_S1x384 := by
  dsimp only [Gen.V, Gen.hostOps0]; after_results; rfl

end Cert.KernelIdeal.GruValue

end
-- ==== Proof.KernelStep.lean ====
/-
  The kernel's output array is the GRU step of the arguments.

  The stored value of the arrays the region finds, read at entry (0, q), is the lane `q` over affine rows of those
  arrays (the body's arithmetic). The weights and the input are arguments as launched; the state row is row 0 of
  `h0` re-laid, so its entry (0, k) is `h0`'s (0, 0, k); each bias row is the bias vector re-laid, so its entry (0, j)
  is the vector's entry `j`. With these the lane is the specification's `step` of the six arguments, and the run that
  ends with the output array at the stored value ends with it at `step`.
-/
import proofs.«167990_j60687887892609_2_alg».proof.Proof.KernelValue

noncomputable section

namespace Cert.KernelIdeal.GruValue

open Cert.KernelIdeal Cert.KernelIdeal.Gen Idealize.ShloMosaic Idealize.ShloMosaic.TcCoe Idealize.SL.Sem
open Idealize.ShloMosaic.ValueIdx Cert.Gru

/-- Entry (0, k) of row 0 of `h0` re-laid 1 × 128 is `h0`'s entry (0, 0, k). -/
theorem state_row_at (h0 : FVec Ideal S2x1x128 .f32) (p : Fin 1) (k : Fin 128) :
    shapeCast S1x128 (extractStridedSlice S1x1x128 ![0, 0, 0] h0 slices_S2x1x128_S1x1x128_0_0_0)
      shapeCasts_S1x1x128_S1x128 (ix2 p k) = h0 (ix3 0 0 k) :=
  (shapeCast_apply (extractStridedSlice S1x1x128 ![0, 0, 0] h0 slices_S2x1x128_S1x1x128_0_0_0)
      shapeCasts_S1x1x128_S1x128 (ix2 p k) (ix3 (0 : Fin 1) (0 : Fin 1) k) (by
        rw [Shape.rowMajor_val_three, Shape.rowMajor_val_two]
        show (0 * 1 + 0) * 128 + k.val = p.val * 128 + k.val
        have := p.isLt; omega)).trans
    (extractStridedSlice_apply ![0, 0, 0] h0 slices_S2x1x128_S1x1x128_0_0_0 (ix3 (0 : Fin 1) (0 : Fin 1) k)
      (ix3 (0 : Fin 2) (0 : Fin 1) k) (fun a => match a with
        | ⟨0, _⟩ => by show (0 : Nat) = 0 + 0; rfl
        | ⟨1, _⟩ => by show (0 : Nat) = 0 + 0; rfl
        | ⟨2, _⟩ => by show k.val = 0 + k.val; omega))

/-- Entry (0, j) of a 384-vector re-laid 1 × 384 is the vector's entry `j`. -/
theorem bias_row_at (b : FVec Ideal S384 .f32) (p : Fin 1) (j : Fin 384) :
    shapeCast S1x384 b shapeCasts_S384_S1x384 (ix2 p j) = b (ix1 j) :=
  shapeCast_apply b shapeCasts_S384_S1x384 (ix2 p j) (ix1 j) (by
    rw [Shape.rowMajor_val_one, Shape.rowMajor_val_two]
    show j.val = p.val * 384 + j.val
    have := p.isLt; omega)

variable (m : (ℓ : Loc nD τ sig) → Buf (Elt Ideal) ℓ) (ρ : Dev nD → PrngReg)

/-- The stored value of the arrays the region finds is the GRU step of the launched arguments. -/
theorem stored_eq (c : Dev nD) :
    stored m c = step (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  obtain ⟨p, q, rfl⟩ : ∃ (p : Fin 1) (q : Fin 128), i = ix2 p q := ⟨i 0, i 1, eq_ix2 i⟩
  show k0_pay1 (F := Ideal) (V m c main_arg0) (V m c main_v1) (V m c main_arg2) (V m c main_arg3) (V m c main_v2)
    (V m c main_v3) (ix2 p q) = _
  rw [pay_apply, V_main_arg0, V_main_arg2, V_main_arg3, V_state, V_biasX, V_biasH]
  have es := fun k : Fin 128 => state_row_at (m ((c : Thread nD τ).loc main_arg1)) 0 k
  have ebx := fun j : Fin 384 => bias_row_at (m ((c : Thread nD τ).loc main_arg4)) 0 j
  have ebh := fun j : Fin 384 => bias_row_at (m ((c : Thread nD τ).loc main_arg5)) 0 j
  simp only [es, ebx, ebh]
  rfl

/-- Every weakly fair execution of the kernel program ends with the output array at the GRU step of the launched
    arguments, and the arguments unchanged. -/
theorem run : θ_run defs (onTc (τ := τ) (main (F := Ideal))) ⟨m, fun _ => 0, ρ⟩ fun r => ∀ c : Dev nD,
      r.2.mem ((c : Thread nD τ).loc main_v4)
        = step (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (stored_eq m c)), (h c).2⟩)
    (Cert.KernelIdeal.Value.run_blocks m ρ)

end Cert.KernelIdeal.GruValue

end
-- ==== Proof.RefValue.lean ====
/-
  The reference's result is the same function of the arguments.

  The reference transposes each weight matrix and multiplies the activation row into it, so entry (0, j) of a product
  is Σ_k v[0, k] · W[j, k]: the kernel's sum with the two factors of each product exchanged. It adds the bias
  broadcast along the row, cuts the rows into the same three blocks, and spells the logistic function as
  `1 / (1 + e^(−t))` with the literal one; the rest is the same lane-by-lane combination. So its result, entry by entry,
  is the specification's `step`.
-/
import proofs.«167990_j60687887892609_2_alg».proof.Proof.Gen.ReferenceIdeal.Read
import proofs.«167990_j60687887892609_2_alg».proof.Proof.GruSpec

noncomputable section

namespace Cert.ReferenceIdeal.GruRef

open Cert.ReferenceIdeal Cert.ReferenceIdeal.Gen Cert.ReferenceIdeal.Read Idealize.ShloMosaic Idealize.ShloMosaic.ValueIdx Cert.Gru

/-! ## The previous state and the two pre-activation rows -/

/-- Entry (0, q) of the state row is entry (0, 0, q) of `h0`. -/
theorem state_at (x1 : (⟨S2x1x128, .f32⟩ : BufTy).Contents (Elt Ideal)) (p : Fin 1) (q : Fin 128) :
    val_main_v1 (F := Ideal) x1 (ix2 p q) = x1 (ix3 0 0 q) := by
  rw [val_main_v1_apply, val_main_v0_apply]
  refine congrArg x1 (funext fun a => Fin.ext ?_)
  match a with
  | ⟨0, _⟩ => rfl
  | ⟨1, _⟩ => rfl
  | ⟨2, _⟩ => show (p.val * 128 + q.val) % 128 = q.val; have := p.isLt; have := q.isLt; omega

/-- Entry (0, j) of the input-side pre-activation row is affine row `j`: the factors of each product exchanged. -/
theorem gatesX (x0 : (⟨S1x512, .f32⟩ : BufTy).Contents (Elt Ideal)) (x2 : (⟨S384x512, .f32⟩ : BufTy).Contents (Elt Ideal)) (x4 : (⟨S384, .f32⟩ : BufTy).Contents (Elt Ideal)) (p : Fin 1) (j : Fin 384) :
    val_main_v5 (F := Ideal) x0 x2 x4 (ix2 p j) = affine x2 (fun k => x0 (ix2 0 k)) (fun j => x4 (ix1 j)) j := by
  obtain rfl : p = 0 := Subsingleton.elim _ _
  rw [val_main_v5_apply, val_main_v3_apply, val_main_v4_apply]
  simp only [val_main_v2_apply]
  have e1 : ∀ k : Fin 512, lidx_main_v3 (ix2 (0 : Fin 1) j) k = ix2 0 k := fun k =>
    funext fun a => Fin.ext (by match a with | ⟨0, _⟩ => rfl | ⟨1, _⟩ => rfl)
  have e2 : ∀ k : Fin 512, idx_main_v2 (ridx_main_v3 (ix2 (0 : Fin 1) j) k) = ix2 j k := fun k =>
    funext fun a => Fin.ext (by match a with | ⟨0, _⟩ => rfl | ⟨1, _⟩ => rfl)
  have e3 : idx_main_v4 (ix2 (0 : Fin 1) j) = ix1 j :=
    funext fun a => Fin.ext (by match a with | ⟨0, _⟩ => rfl)
  simp only [e1, e2, e3]
  exact congrArg (· + x4 (ix1 j)) (Finset.sum_congr rfl fun k _ => mul_comm _ _)

/-- Entry (0, j) of the state-side pre-activation row is affine row `j` over row 0 of `h0`. -/
theorem gatesH (x1 : (⟨S2x1x128, .f32⟩ : BufTy).Contents (Elt Ideal)) (x3 : (⟨S384x128, .f32⟩ : BufTy).Contents (Elt Ideal)) (x5 : (⟨S384, .f32⟩ : BufTy).Contents (Elt Ideal)) (p : Fin 1) (j : Fin 384) :
    val_main_v9 (F := Ideal) x1 x3 x5 (ix2 p j) = affine x3 (fun k => x1 (ix3 0 0 k)) (fun j => x5 (ix1 j)) j := by
  obtain rfl : p = 0 := Subsingleton.elim _ _
  rw [val_main_v9_apply, val_main_v7_apply, val_main_v8_apply]
  simp only [val_main_v6_apply]
  have e1 : ∀ k : Fin 128, lidx_main_v7 (ix2 (0 : Fin 1) j) k = ix2 0 k := fun k =>
    funext fun a => Fin.ext (by match a with | ⟨0, _⟩ => rfl | ⟨1, _⟩ => rfl)
  have e2 : ∀ k : Fin 128, idx_main_v6 (ridx_main_v7 (ix2 (0 : Fin 1) j) k) = ix2 j k := fun k =>
    funext fun a => Fin.ext (by match a with | ⟨0, _⟩ => rfl | ⟨1, _⟩ => rfl)
  have e3 : idx_main_v8 (ix2 (0 : Fin 1) j) = ix1 j :=
    funext fun a => Fin.ext (by match a with | ⟨0, _⟩ => rfl)
  simp only [e1, e2, e3, state_at]
  exact congrArg (· + x5 (ix1 j)) (Finset.sum_congr rfl fun k _ => mul_comm _ _)

/-! ## The three blocks of a row -/

theorem blockR (p : Fin 1) (q : Fin 128) : idx_main_v10 (ix2 p q) = ix2 p (rowR q) :=
  funext fun a => Fin.ext (by match a with | ⟨0, _⟩ => rfl | ⟨1, _⟩ => rfl)
theorem blockZ (p : Fin 1) (q : Fin 128) : idx_main_v11 (ix2 p q) = ix2 p (rowZ q) :=
  funext fun a => Fin.ext (by match a with | ⟨0, _⟩ => rfl | ⟨1, _⟩ => rfl)
theorem blockN (p : Fin 1) (q : Fin 128) : idx_main_v12 (ix2 p q) = ix2 p (rowN q) :=
  funext fun a => Fin.ext (by match a with | ⟨0, _⟩ => rfl | ⟨1, _⟩ => rfl)
theorem blockR' (p : Fin 1) (q : Fin 128) : idx_main_v13 (ix2 p q) = ix2 p (rowR q) :=
  funext fun a => Fin.ext (by match a with | ⟨0, _⟩ => rfl | ⟨1, _⟩ => rfl)
theorem blockZ' (p : Fin 1) (q : Fin 128) : idx_main_v14 (ix2 p q) = ix2 p (rowZ q) :=
  funext fun a => Fin.ext (by match a with | ⟨0, _⟩ => rfl | ⟨1, _⟩ => rfl)
theorem blockN' (p : Fin 1) (q : Fin 128) : idx_main_v15 (ix2 p q) = ix2 p (rowN q) :=
  funext fun a => Fin.ext (by match a with | ⟨0, _⟩ => rfl | ⟨1, _⟩ => rfl)

/-! ## The result -/

/-- The reference's last stage is the specification's `step` of the six arguments. -/
theorem value_eq (x0 : (⟨S1x512, .f32⟩ : BufTy).Contents (Elt Ideal)) (x1 : (⟨S2x1x128, .f32⟩ : BufTy).Contents (Elt Ideal)) (x2 : (⟨S384x512, .f32⟩ : BufTy).Contents (Elt Ideal)) (x3 : (⟨S384x128, .f32⟩ : BufTy).Contents (Elt Ideal))
    (x4 x5 : (⟨S384, .f32⟩ : BufTy).Contents (Elt Ideal)) :
    val_main_v37 (F := Ideal) x0 x1 x2 x3 x4 x5 = step x0 x1 x2 x3 x4 x5 := by
  funext i
  obtain ⟨p, q, rfl⟩ : ∃ (p : Fin 1) (q : Fin 128), i = ix2 p q := ⟨i 0, i 1, eq_ix2 i⟩
  simp only [val_main_v37_apply, val_main_v36_apply, val_main_v35_apply, val_main_v34_apply, val_main_v33_apply,
    val_main_v32_apply, val_main_v31_apply, val_main_v30_apply, val_main_v29_apply, val_main_v28_apply,
    val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_cst_apply, val_main_cst_0_apply,
    val_main_cst_1_apply, val_main_cst_2_apply, val_main_cst_3_apply]
  simp only [blockR, blockZ, blockN, blockR', blockZ', blockN', gatesX, gatesH, state_at,
    Ideal.ofBits_def, Ideal.addf_def, Ideal.subf_def, Ideal.mulf_def, Ideal.hostDivf_def, Ideal.hostUnary_exp_def,
    Ideal.hostUnary_tanh_def, Ideal.hostNegf_def, Ideal.negf_def, one_f32, logistic_expand]
  rfl

end Cert.ReferenceIdeal.GruRef

end
-- ==== Proof.lean ====
/-
  One step of a GRU cell: the kernel against its reference, on the extended reals.

  Both programs compute, lane by lane, h' = (1 − z) · n + z · h with r = σ(gx_r + gh_r), z = σ(gx_z + gh_z),
  n = tanh(gx_n + r · gh_n), where gx = Wih·x + bih and gh = Whh·h + bhh are the two stacked pre-activation vectors
  and h is row 0 of the state argument (Proof/GruSpec.lean states this as ONE function `step` of the six arguments).

  The kernel runs once over whole arrays: it multiplies each weight matrix, as the left factor, by the activation
  row, re-lays the resulting column as a row, adds the bias row, cuts the three gate blocks and combines them with the
  logistic function and tanh (Proof/KernelGates.lean, KernelLane.lean: the stored value at an entry; KernelValue.lean:
  the one block is the whole array; KernelStep.lean: the output array is `step` of the arguments). The reference
  multiplies the activation row into the transposed weights — the same sums with the two factors of each product
  exchanged, equal because multiplication of extended reals is commutative — and spells the logistic function as
  1 / (1 + e^(−t)), which is the logistic function's definition on the extended reals (Proof/RefValue.lean).
  No step uses that the inputs are finite.

  The three frames are the programs' runs with the result dropped; the idealization rewrote no operation, so the
  preservation claim is trivial; the algebraic claim sets the two runs side by side at the common value `step`.
-/
import proofs.«167990_j60687887892609_2_alg».proof.Defs
import proofs.«167990_j60687887892609_2_alg».proof.Proof.Gen.Kernel
import proofs.«167990_j60687887892609_2_alg».proof.Proof.Gen.Kernel.Skeleton
import proofs.«167990_j60687887892609_2_alg».proof.Proof.Gen.Kernel.Launch
import proofs.«167990_j60687887892609_2_alg».proof.Proof.Gen.Kernel.Points
import proofs.«167990_j60687887892609_2_alg».proof.Proof.Gen.Kernel.Frame
import proofs.«167990_j60687887892609_2_alg».proof.Proof.Gen.KernelIdeal
import proofs.«167990_j60687887892609_2_alg».proof.Proof.Gen.KernelIdeal.Skeleton
import proofs.«167990_j60687887892609_2_alg».proof.Proof.Gen.KernelIdeal.Launch
import proofs.«167990_j60687887892609_2_alg».proof.Proof.Gen.KernelIdeal.Points
import proofs.«167990_j60687887892609_2_alg».proof.Proof.Gen.KernelIdeal.Frame
import proofs.«167990_j60687887892609_2_alg».proof.Proof.Gen.ReferenceIdeal
import proofs.«167990_j60687887892609_2_alg».proof.Proof.Gen.Pre_finite_inputs
import proofs.«167990_j60687887892609_2_alg».proof.Proof.Gen.KernelIdeal.Value
import proofs.«167990_j60687887892609_2_alg».proof.Proof.Gen.ReferenceIdeal.Run
import proofs.«167990_j60687887892609_2_alg».proof.Proof.Gen.ReferenceIdeal.Read
import proofs.«167990_j60687887892609_2_alg».proof.Proof.KernelStep
import proofs.«167990_j60687887892609_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `step` of the arguments:
    the kernel by its run, the reference by its run, its last stage being `step`. -/
theorem algebraic : Cert.algebraic_KernelIdeal_ReferenceIdeal := by
  intro m ρ m' ρ' _ hagree
  refine ⟨_, Cert.KernelIdeal.GruValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.GruRef.value_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
